-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩

class Facts : Prop where
  bcast_S_S1088000x128 : S_.BroadcastsInDim S1088000x128 (![] : Fin 0 → Fin S1088000x128.rank)
  reducesTo_S1088000x128_S_d0_1 : S1088000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1088000x128 .f32) (main_arg1 : IVec S1024000 32) (main_arg2 : IVec S1024000 32) (main_arg3 : FVec F S128x128 .f32) (main_arg4 : FVec F S128x128 .f32) (main_arg5 : FVec F S128 .f32) : IVec S_ 1 :=
  let main_v0 : FVec F S1088000x128 .f32 := Host.absf main_arg0
  let main_cst : FVec F S_ .f32 := constant S_ .f32 0x7F800000#32
  let main_v1 : FVec F S1088000x128 .f32 := broadcastInDim S1088000x128 ![] bcast_S_S1088000x128 main_cst
  let main_v2 : IVec S1088000x128 1 := cmpf .olt main_v0 main_v1
  let main_c : IVec S_ 1 := constantI S_ 1 1#1
  let main_v3 : IVec S_ 1 := (fun x v => Host.reduce IntOp.andi x v reducesTo_S1088000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩
abbrev S1024000x1 : Shape := ⟨2, ![1024000, 1]⟩
abbrev S1024000x128 : Shape := ⟨2, ![1024000, 128]⟩
abbrev S64000x128 : Shape := ⟨2, ![64000, 128]⟩
abbrev S1x128 : Shape := ⟨2, ![1, 128]⟩
abbrev S4000x128 : Shape := ⟨2, ![4000, 128]⟩

abbrev nBuf : Space → Nat
  | .hbm => 52
  | .vmem => 9
  | .smem => 0
  | _ => 0

abbrev bufTy : (tb : Table) → Fin (tcTables nBuf tb) → BufTy
  | .hbm, ⟨0, _⟩ => ⟨S1088000x128, .f32⟩
  | .hbm, ⟨1, _⟩ => ⟨S1024000, .i32⟩
  | .hbm, ⟨2, _⟩ => ⟨S1024000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1024000, .i32⟩
  | .hbm, ⟨7, _⟩ => ⟨S_, .i32⟩
  | .hbm, ⟨8, _⟩ => ⟨S_, .i32⟩
  | .hbm, ⟨9, _⟩ => ⟨S1024000, .i32⟩
  | .hbm, ⟨10, _⟩ => ⟨S1024000, .i32⟩
  | .hbm, ⟨11, _⟩ => ⟨S1024000, .i32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S1024000, .i32⟩
  | .hbm, ⟨16, _⟩ => ⟨S1024000, .i32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S1024000, .i1⟩
  | .hbm, ⟨21, _⟩ => ⟨S_, .i32⟩
  | .hbm, ⟨22, _⟩ => ⟨S1024000, .i32⟩
  | .hbm, ⟨23, _⟩ => ⟨S1024000, .i32⟩
  | .hbm, ⟨24, _⟩ => ⟨S1024000, .i32⟩
  | .hbm, ⟨25, _⟩ => ⟨S_, .i32⟩
  | .hbm, ⟨26, _⟩ => ⟨S1024000, .i32⟩
  | .hbm, ⟨27, _⟩ => ⟨S1024000, .i32⟩
  | .hbm, ⟨28, _⟩ => ⟨S1024000, .i32⟩
  | .hbm, ⟨29, _⟩ => ⟨S_, .i32⟩
  | .hbm, ⟨30, _⟩ => ⟨S1024000, .i32⟩
  | .hbm, ⟨31, _⟩ => ⟨S1024000, .i32⟩
  | .hbm, ⟨32, _⟩ => ⟨S1024000, .i32⟩
  | .hbm, ⟨33, _⟩ => ⟨S_, .i32⟩
  | .hbm, ⟨34, _⟩ => ⟨S1024000, .i32⟩
  | .hbm, ⟨35, _⟩ => ⟨S1024000, .i1⟩
  | .hbm, ⟨36, _⟩ => ⟨S_, .i32⟩
  | .hbm, ⟨37, _⟩ => ⟨S1024000, .i32⟩
  | .hbm, ⟨38, _⟩ => ⟨S1024000, .i32⟩
  | .hbm, ⟨39, _⟩ => ⟨S1024000, .i32⟩
  | .hbm, ⟨40, _⟩ => ⟨S1024000x1, .i32⟩
  | .hbm, ⟨41, _⟩ => ⟨S1024000x128, .f32⟩
  | .hbm, ⟨42, _⟩ => ⟨S1024000x128, .bf16⟩
  | .hbm, ⟨43, _⟩ => ⟨S1024000x128, .f32⟩
  | .hbm, ⟨44, _⟩ => ⟨S_, .f32⟩
  | .hbm, ⟨45, _⟩ => ⟨S64000x128, .f32⟩
  | .hbm, ⟨46, _⟩ => ⟨S1024000x1, .i32⟩
  | .hbm, ⟨47, _⟩ => ⟨S64000x128, .f32⟩
  | .hbm, ⟨48, _⟩ => ⟨S128x128, .f32⟩
  | .hbm, ⟨49, _⟩ => ⟨S128x128, .f32⟩
  | .hbm, ⟨50, _⟩ => ⟨S1x128, .f32⟩
  | .hbm, ⟨51, _⟩ => ⟨S64000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S1088000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c68_i32 : BitVec 32 := 68#32
  let v27 : BitVec 32 := Scalar.muli v16 c68_i32
  let v28 : BitVec 32 := Scalar.addi v27 v26
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bitsLt_bf16_f32 : FTy.bits .bf16 < FTy.bits .f32
  bcast_S_S64000x128 : S_.BroadcastsInDim S64000x128 (![] : Fin 0 → Fin S64000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S1088000x128_S1024000x1_S1024000x128_1_0_n_n_0_1_1128_wf : GatherDims.WF S1088000x128 S1024000x1 S1024000x128 [1] [0] [] [0] [] 1 ![1, 128]
  scatter_S64000x128_S1024000x1_S1024000x128_1_0_0_1_wf : ScatterDims.WF S64000x128 S1024000x1 S1024000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S64000x128.size a
  hwx0_0 : ∀ i : grid0.Coords, EltTy.bits .f32 = 32 ∨ (Rect.block (s := S64000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1088000x128.size a
  hwx0_1 : ∀ i : grid0.Coords, EltTy.bits .f32 = 32 ∨ (Rect.block (s := S1088000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S64000x128.size a
  hwx0_5 : ∀ i : grid0.Coords, EltTy.bits .f32 = 32 ∨ (Rect.block (s := S64000x128) S4000x128.size (cc0_transform_5 i) (hinb0_5 i)).WholeWords (EltTy.packing .f32)

variable [Facts₀]

def gather_S1088000x128_S1024000x1_S1024000x128_1_0_n_n_0_1_1128 : GatherDims S1088000x128 S1024000x1 S1024000x128 where
  offsetDims := [1]
  collapsedSliceDims := [0]
  operandBatchingDims := []
  startIndicesBatchingDims := []
  startIndexMap := [0]
  indexVectorDim := 1
  sliceSizes := ![1, 128]
  wf := gather_S1088000x128_S1024000x1_S1024000x128_1_0_n_n_0_1_1128_wf
def scatter_S64000x128_S1024000x1_S1024000x128_1_0_0_1 : ScatterDims S64000x128 S1024000x1 S1024000x128 where
  updateWindowDims := [1]
  insertedWindowDims := [0]
  scatterDimsToOperandDims := [0]
  indexVectorDim := 1
  wf := scatter_S64000x128_S1024000x1_S1024000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v19) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1088000x128 : Shape := ⟨2, ![1088000, 128]⟩
abbrev S1024000 : Shape := ⟨1, ![1024000]⟩
abbrev S128x128 : Shape := ⟨2, ![128, 128]⟩
abbrev S128 : Shape := ⟨1, ![128]⟩
abbrev S_ : Shape := ⟨0, ![]⟩
abbrev S1024000x1 : Shape := ⟨2, ![1024000, 1]⟩
abbrev S1024000x128 : Shape := ⟨2, ![1024000, 128]⟩
abbrev S64000x128 : Shape := ⟨2, ![64000, 128]⟩
abbrev S4x272000x128 : Shape := ⟨3, ![4, 272000, 128]⟩
abbrev S4x16000x128 : Shape := ⟨3, ![4, 16000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S1088000x128, .f32⟩
  | .hbm, ⟨1, _⟩ => ⟨S1024000, .i32⟩
  | .hbm, ⟨2, _⟩ => ⟨S1024000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1024000, .i32⟩
  | .hbm, ⟨7, _⟩ => ⟨S_, .i32⟩
  | .hbm, ⟨8, _⟩ => ⟨S_, .i32⟩
  | .hbm, ⟨9, _⟩ => ⟨S1024000, .i32⟩
  | .hbm, ⟨10, _⟩ => ⟨S1024000, .i32⟩
  | .hbm, ⟨11, _⟩ => ⟨S1024000, .i32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S1024000, .i32⟩
  | .hbm, ⟨16, _⟩ => ⟨S1024000, .i32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S1024000, .i1⟩
  | .hbm, ⟨21, _⟩ => ⟨S_, .i32⟩
  | .hbm, ⟨22, _⟩ => ⟨S1024000, .i32⟩
  | .hbm, ⟨23, _⟩ => ⟨S1024000, .i32⟩
  | .hbm, ⟨24, _⟩ => ⟨S1024000, .i32⟩
  | .hbm, ⟨25, _⟩ => ⟨S_, .i32⟩
  | .hbm, ⟨26, _⟩ => ⟨S1024000, .i32⟩
  | .hbm, ⟨27, _⟩ => ⟨S1024000, .i32⟩
  | .hbm, ⟨28, _⟩ => ⟨S1024000, .i32⟩
  | .hbm, ⟨29, _⟩ => ⟨S_, .i32⟩
  | .hbm, ⟨30, _⟩ => ⟨S1024000, .i32⟩
  | .hbm, ⟨31, _⟩ => ⟨S1024000, .i32⟩
  | .hbm, ⟨32, _⟩ => ⟨S1024000, .i32⟩
  | .hbm, ⟨33, _⟩ => ⟨S_, .i32⟩
  | .hbm, ⟨34, _⟩ => ⟨S1024000, .i32⟩
  | .hbm, ⟨35, _⟩ => ⟨S1024000, .i1⟩
  | .hbm, ⟨36, _⟩ => ⟨S_, .i32⟩
  | .hbm, ⟨37, _⟩ => ⟨S1024000, .i32⟩
  | .hbm, ⟨38, _⟩ => ⟨S1024000, .i32⟩
  | .hbm, ⟨39, _⟩ => ⟨S1024000, .i32⟩
  | .hbm, ⟨40, _⟩ => ⟨S1024000x1, .i32⟩
  | .hbm, ⟨41, _⟩ => ⟨S1024000x128, .f32⟩
  | .hbm, ⟨42, _⟩ => ⟨S_, .f32⟩
  | .hbm, ⟨43, _⟩ => ⟨S64000x128, .f32⟩
  | .hbm, ⟨44, _⟩ => ⟨S1024000x1, .i32⟩
  | .hbm, ⟨45, _⟩ => ⟨S64000x128, .f32⟩
  | .hbm, ⟨46, _⟩ => ⟨S_, .f32⟩
  | .hbm, ⟨47, _⟩ => ⟨S64000x128, .f32⟩
  | .hbm, ⟨48, _⟩ => ⟨S64000x128, .f32⟩
  | .hbm, ⟨49, _⟩ => ⟨S128x128, .f32⟩
  | .hbm, ⟨50, _⟩ => ⟨S64000x128, .f32⟩
  | .hbm, ⟨51, _⟩ => ⟨S4x272000x128, .f32⟩
  | .hbm, ⟨52, _⟩ => ⟨S4x16000x128, .f32⟩
  | .hbm, ⟨53, _⟩ => ⟨S64000x128, .f32⟩
  | .hbm, ⟨54, _⟩ => ⟨S128x128, .f32⟩
  | .hbm, ⟨55, _⟩ => ⟨S64000x128, .f32⟩
  | .hbm, ⟨56, _⟩ => ⟨S1x128, .f32⟩
  | .hbm, ⟨57, _⟩ => ⟨S64000x128, .f32⟩
  | .hbm, ⟨58, _⟩ => ⟨S64000x128, .f32⟩
  | .hbm, ⟨59, _⟩ => ⟨S64000x128, .f32⟩
  | _, _ => ⟨S1088000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S64000x128 : S_.BroadcastsInDim S64000x128 (![] : Fin 0 → Fin S64000x128.rank)
  transposes_S128x128_S128x128_1_0 : S128x128.Transposes [1, 0] S128x128
  shapeCasts_S1088000x128_S4x272000x128 : S1088000x128.ShapeCasts S4x272000x128
  slices_S4x272000x128_S4x16000x128_0_0_0 : S4x272000x128.Slices ![0, 0, 0] S4x16000x128
  shapeCasts_S4x16000x128_S64000x128 : S4x16000x128.ShapeCasts S64000x128
  bcast_S128_S1x128_1 : S128.BroadcastsInDim S1x128 (![1] : Fin 1 → Fin S1x128.rank)
  bcast_S1x128_S64000x128_0_1 : S1x128.BroadcastsInDim S64000x128 (![0, 1] : Fin 2 → Fin S64000x128.rank)
  gather_S1088000x128_S1024000x1_S1024000x128_1_0_n_n_0_1_1128_wf : GatherDims.WF S1088000x128 S1024000x1 S1024000x128 [1] [0] [] [0] [] 1 ![1, 128]
  scatter_S64000x128_S1024000x1_S1024000x128_1_0_0_1_wf : ScatterDims.WF S64000x128 S1024000x1 S1024000x128 [1] [0] [0] 1
  dot_S64000x128_S128x128_S64000x128_1_0_0_1_n_n_wf : DotDims.WF S64000x128 S128x128 S64000x128 [1] [0] [0] [1] [] []

variable [Facts₀]

def gather_S1088000x128_S1024000x1_S1024000x128_1_0_n_n_0_1_1128 : GatherDims S1088000x128 S1024000x1 S1024000x128 where
  offsetDims := [1]
  collapsedSliceDims := [0]
  operandBatchingDims := []
  startIndicesBatchingDims := []
  startIndexMap := [0]
  indexVectorDim := 1
  sliceSizes := ![1, 128]
  wf := gather_S1088000x128_S1024000x1_S1024000x128_1_0_n_n_0_1_1128_wf
def scatter_S64000x128_S1024000x1_S1024000x128_1_0_0_1 : ScatterDims S64000x128 S1024000x1 S1024000x128 where
  updateWindowDims := [1]
  insertedWindowDims := [0]
  scatterDimsToOperandDims := [0]
  indexVectorDim := 1
  wf := scatter_S64000x128_S1024000x1_S1024000x128_1_0_0_1_wf
def dot_S64000x128_S128x128_S64000x128_1_0_0_1_n_n : DotDims S64000x128 S128x128 S64000x128 where
  lhsContracting := [1]
  rhsContracting := [0]
  lhsNonContracting := [0]
  rhsNonContracting := [1]
  lhsBatch := []
  rhsBatch := []
  wf := dot_S64000x128_S128x128_S64000x128_1_0_0_1_n_n_wf

class Facts : Prop extends Facts₀ where

variable [Facts]
-- ==== Proof.KernelBlocks.lean ====
/-
  Where each window's block sits in its array.

  The grid has 16 points.  At point t the neighbour-sum window and the output window are at block t (rows 4000 t ..
  4000 t + 3999), the feature window at block (t / 4) * 68 + t % 4, and the two weight windows and the bias window at
  their only block.  An element of a block sits in the array at block index times block size plus its coordinate
  inside the block.  The 16 output blocks tile the output: row r is in the block of point r / 4000.
-/
import proofs.«139446_j54494545052116_2_alg».proof.Proof.Gen.KernelIdeal.Value
import Idealize.ShloMosaic.PureOps.Ideal

noncomputable section

namespace Cert.KernelIdeal.Hand

open Cert.KernelIdeal Cert.KernelIdeal.Gen Idealize.ShloMosaic Idealize.ShloMosaic.TcCoe Idealize.SL.Sem

theorem offs_zero : (![0, 0] : Fin 2 → Nat) = fun _ => 0 := funext fun a => by fin_cases a <;> rfl

/-- The block each window is at, at every grid point (decided over the 16 points). -/
theorem block_index : ∀ t : Fin cfg0.N,
    win0_0.index t (0 : Fin 2) = t.val ∧ win0_0.index t (1 : Fin 2) = 0
    ∧ win0_1.index t (0 : Fin 2) = (t.val / 4) * 68 + t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum block at point `t` is rows `4000 t ..` of the array behind window 0, whatever it holds. -/
theorem blk0_read (c : Dev nD) (t : Fin cfg0.N) (A : Buf (Elt Ideal) ((c : Thread nD τ).loc (Pipeline.arrRef spec0 0)))
    (x : S4000x128.Idx) (k : S64000x128.Idx)
    (hk0 : (k 0).val = t.val * 4000 + (x 0).val) (hk1 : (k 1).val = (x 1).val) :
    (((cfg0.win 0).blk t).view.read (Elt Ideal) A : Vec Ideal S4000x128 .f32) x = (A : FVec Ideal S64000x128 .f32) k := by
  obtain ⟨e0, e1, -⟩ := block_index t
  rw [View.read_apply]
  refine congrArg (A : FVec Ideal S64000x128 .f32) (funext fun a => Fin.ext ?_)
  match a with
  | ⟨0, _⟩ => show win0_0.index t 0 * 4000 + 1 * (x 0).val = (k 0).val; rw [e0, hk0]; omega
  | ⟨1, _⟩ => show win0_0.index t 1 * 128 + 1 * (x 1).val = (k 1).val; rw [e1, hk1]; omega

/-- The feature block at point `t` is the 4000 rows starting at block `(t / 4) * 68 + t % 4` of the array behind
    window 1, whatever it holds. -/
theorem blk1_read (c : Dev nD) (t : Fin cfg0.N) (A : Buf (Elt Ideal) ((c : Thread nD τ).loc (Pipeline.arrRef spec0 1)))
    (x : S4000x128.Idx) (k : S1088000x128.Idx)
    (hk0 : (k 0).val = ((t.val / 4) * 68 + t.val % 4) * 4000 + (x 0).val) (hk1 : (k 1).val = (x 1).val) :
    (((cfg0.win 1).blk t).view.read (Elt Ideal) A : Vec Ideal S4000x128 .f32) x = (A : FVec Ideal S1088000x128 .f32) k := by
  obtain ⟨-, -, e0, e1, -⟩ := block_index t
  rw [View.read_apply]
  refine congrArg (A : FVec Ideal S1088000x128 .f32) (funext fun a => Fin.ext ?_)
  match a with
  | ⟨0, _⟩ => show win0_1.index t 0 * 4000 + 1 * (x 0).val = (k 0).val; rw [e0, hk0]; omega
  | ⟨1, _⟩ => show win0_1.index t 1 * 128 + 1 * (x 1).val = (k 1).val; rw [e1, hk1]; omega

/-- Window 2's block is its whole array at every point. -/
theorem blk2_read (c : Dev nD) (t : Fin cfg0.N) (A : Buf (Elt Ideal) ((c : Thread nD τ).loc (Pipeline.arrRef spec0 2))) :
    (((cfg0.win 2).blk t).view.read (Elt Ideal) A : Vec Ideal S128x128 .f32) = (A : FVec Ideal S128x128 .f32) := by
  obtain ⟨-, -, -, -, e0, e1, -⟩ := block_index t
  funext x
  rw [View.read_apply]
  refine congrArg (A : FVec Ideal S128x128 .f32) (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- Window 3's block is its whole array at every point. -/
theorem blk3_read (c : Dev nD) (t : Fin cfg0.N) (A : Buf (Elt Ideal) ((c : Thread nD τ).loc (Pipeline.arrRef spec0 3))) :
    (((cfg0.win 3).blk t).view.read (Elt Ideal) A : Vec Ideal S128x128 .f32) = (A : FVec Ideal S128x128 .f32) := by
  obtain ⟨-, -, -, -, -, -, e0, e1, -⟩ := block_index t
  funext x
  rw [View.read_apply]
  refine congrArg (A : FVec Ideal S128x128 .f32) (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- Window 4's block is its whole array at every point. -/
theorem blk4_read (c : Dev nD) (t : Fin cfg0.N) (A : Buf (Elt Ideal) ((c : Thread nD τ).loc (Pipeline.arrRef spec0 4))) :
    (((cfg0.win 4).blk t).view.read (Elt Ideal) A : Vec Ideal S1x128 .f32) = (A : FVec Ideal S1x128 .f32) := by
  obtain ⟨-, -, -, -, -, -, -, -, e0, e1, -⟩ := block_index t
  funext x
  rw [View.read_apply]
  refine congrArg (A : FVec Ideal S1x128 .f32) (funext fun a => Fin.ext ?_)
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- An element of the output block at point `t` sits at row `4000 t` plus its row, at its own column. -/
theorem out_emb (t : Fin cfg0.N) (j : S4000x128.Idx) :
    ((((cfg0.win 5).blk t).view.emb j) 0).val = t.val * 4000 + (j 0).val
    ∧ ((((cfg0.win 5).blk t).view.emb j) 1).val = (j 1).val := by
  obtain ⟨-, -, -, -, -, -, -, -, -, -, e0, e1⟩ := block_index t
  constructor
  · show win0_5.index t 0 * 4000 + 1 * (j 0).val = _; rw [e0]; omega
  · show win0_5.index t 1 * 128 + 1 * (j 1).val = _; rw [e1]; omega

/-- An index is in point `t`'s output block iff each coordinate is in the block's range on its axis. -/
theorem mem_blk (t : Fin cfg0.N) (i : S64000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v23).slice (win0_5.rect t)).set ↔ _
  rw [View.set_slice_whole, Rect.mem_set_unit]
  exact Iff.rfl

/-- The 16 blocks tile the output: row `r` is in the block of point `r / 4000`. -/
theorem cover (i : S64000x128.Idx) :
    ∃ t : Fin cfg0.N, (cfg0.win 5).flush t = true ∧ i ∈ ((cfg0.win 5).blk t).view.set := by
  have hi0 : (i 0).val < 64000 := (i 0).isLt
  have hi1 : (i 1).val < 128 := (i 1).isLt
  have hN : cfg0.N = 16 := N_0
  obtain ⟨t, ht⟩ : ∃ t : Fin cfg0.N, t.val = (i 0).val / 4000 := ⟨⟨(i 0).val / 4000, by rw [hN]; omega⟩, rfl⟩
  obtain ⟨-, -, -, -, -, -, -, -, -, -, e0, e1⟩ := block_index t
  refine ⟨t, flush0_5 t, ?_⟩
  rw [mem_blk]
  intro a
  match a with
  | ⟨0, _⟩ => show win0_5.index t 0 * 4000 ≤ (i 0).val ∧ (i 0).val < win0_5.index t 0 * 4000 + 4000; rw [e0, ht]; omega
  | ⟨1, _⟩ => show win0_5.index t 1 * 128 ≤ (i 1).val ∧ (i 1).val < win0_5.index t 1 * 128 + 128; rw [e1]; omega

end Cert.KernelIdeal.Hand

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KernelPayload.lean ====
/-
  The kernel body's arithmetic at an entry.

  From a 4000-row block x0 of the neighbour sums, the matching 4000 seed rows x1 of the features, the two
  transposed weight matrices x2, x3 and the bias as a one-row matrix x4, the body stores
  (x1 @ x3 + bias) + ((x0 * 2^-4) @ x2).  The roundings to the 16-bit float format before each product are the
  identity on the extended reals, a product accumulated into the zero matrix is the plain sum over the contracted
  axis, and the bias row broadcast over the rows reads its column's entry.
-/
import proofs.«139446_j54494545052116_2_alg».proof.Proof.Gen.KernelIdeal.Skeleton
import proofs.«139446_j54494545052116_2_alg».proof.Proof.LibMatmulPlain
import Idealize.ShloMosaic.Lib.Pipeline.Value
import Idealize.ShloMosaic.Lib.ValueLayout

noncomputable section

namespace Cert.KernelIdeal.Hand

open Cert.KernelIdeal Idealize.ShloMosaic Idealize.ShloMosaic.ValueIdx

/-- Entry `(p, q)` of what the body stores, from the blocks it loads. -/
theorem pay_apply (x0 x1 : Vec Ideal S4000x128 .f32) (x2 x3 : Vec Ideal S128x128 .f32) (x4 : Vec Ideal S1x128 .f32)
    (p : Fin 4000) (q : Fin 128) :
    Gen.k0_pay1 x0 x1 x2 x3 x4 (ix2 p q)
      = ((∑ k : Fin 128, x1 (ix2 p k) * x3 (ix2 k q)) + x4 (ix2 (0 : Fin 1) q))
        + ∑ k : Fin 128, (x0 (ix2 p k) * Ideal.ofBits .f32 0x3D800000#32) * x2 (ix2 k q) := by
  unfold Gen.k0_pay1
  simp only [shapeCast_self]
  rw [addf_apply, addf_apply,
    Cert.LibMatmulPlain.matmul_zero_apply _ rfl rfl rfl rfl rfl rfl,
    Cert.LibMatmulPlain.matmul_zero_apply _ rfl rfl rfl rfl rfl rfl,
    broadcastTo_1b_ab_apply]
  rfl

end Cert.KernelIdeal.Hand

end
-- ==== Proof.Spec.lean ====
/-
  What both programs compute, as one function of the arrays, entry by entry, on the extended reals.

  The output has one row per seed node, 16000 seeds in each of 4 partitions.  A partition's slice of the feature
  matrix has 272000 rows of which the first 16000 are its seeds, so seed row p of the output reads row
  (p / 16000) * 272000 + p % 16000 of the features.  Entry (p, q) of the result is

      ( sum_k feat[seed p, k] * ws[q, k]  +  b[q] )  +  sum_k ( h[p, k] * 2^-4 ) * wn[q, k]

  where h is the matrix of neighbour sums (every gathered source row added onto its destination row), ws and wn
  the two weight matrices and b the bias.  The kernel multiplies the neighbour sums by the float 2^-4 and the
  reference divides them by the float 16: on the extended reals the quotient by 16 is the product with 1/16,
  for infinite values too, so nothing has to be assumed finite.
-/
import Idealize.ShloMosaic.PureOps.Ideal
import Idealize.ShloMosaic.Lib.ValueIdx

noncomputable section

namespace Cert.Spec

open Idealize.ShloMosaic Idealize.ShloMosaic.ValueIdx

/-- The float word 0x3D800000 is 2^-4. -/
theorem sixteenth : Ideal.ofBits .f32 0x3D800000#32 = ((1 / 16 : ℝ) : EReal) := by
  simp [Ideal.ofBits, Ideal.ieee, -EReal.coe_mul]; norm_num

/-- The float word 0x41800000 is 16. -/
theorem sixteen : Ideal.ofBits .f32 0x41800000#32 = ((16 : ℝ) : EReal) := by
  simp [Ideal.ofBits, Ideal.ieee, -EReal.coe_mul]; norm_num

/-- Dividing any extended real by the float 16 is multiplying it by the float 2^-4. -/
theorem div_sixteen (x : EReal) :
    Ideal.div x (Ideal.ofBits .f32 0x41800000#32) = x * Ideal.ofBits .f32 0x3D800000#32 := by
  rw [sixteen, sixteenth, Ideal.div_coe (by norm_num)]

/-- The row of the feature matrix holding seed node `p`: partition `p / 16000`, local seed `p % 16000`. -/
def seedRow (p : Fin 64000) : Fin 1088000 :=
  ⟨(p.val / 16000) * 272000 + p.val % 16000, by have := p.isLt; omega⟩

/-- Entry `(p, q)` of the result. -/
def entry (feat : FVec Ideal ⟨2, ![1088000, 128]⟩ .f32) (h : FVec Ideal ⟨2, ![64000, 128]⟩ .f32)
    (wn ws : FVec Ideal ⟨2, ![128, 128]⟩ .f32) (b : FVec Ideal ⟨1, ![128]⟩ .f32) (p : Fin 64000) (q : Fin 128) : Ideal .f32 :=
  ((∑ k : Fin 128, feat (ix2 (seedRow p) k) * ws (ix2 q k)) + b (ix1 q))
    + ∑ k : Fin 128, (h (ix2 p k) * Ideal.ofBits .f32 0x3D800000#32) * wn (ix2 q k)

/-- The result array. -/
def G (feat : FVec Ideal ⟨2, ![1088000, 128]⟩ .f32) (h : FVec Ideal ⟨2, ![64000, 128]⟩ .f32)
    (wn ws : FVec Ideal ⟨2, ![128, 128]⟩ .f32) (b : FVec Ideal ⟨1, ![128]⟩ .f32) : FVec Ideal ⟨2, ![64000, 128]⟩ .f32 :=
  fun i => entry feat h wn ws b (i 0) (i 1)

theorem G_apply (feat : FVec Ideal ⟨2, ![1088000, 128]⟩ .f32) (h : FVec Ideal ⟨2, ![64000, 128]⟩ .f32)
    (wn ws : FVec Ideal ⟨2, ![128, 128]⟩ .f32) (b : FVec Ideal ⟨1, ![128]⟩ .f32) (p : Fin 64000) (q : Fin 128) :
    G feat h wn ws b (ix2 p q) = entry feat h wn ws b p q := rfl

end Cert.Spec

end
-- ==== Proof.KernelPoint.lean ====
/-
  The kernel's result as one whole-array function of its operands' arrays.

  From the features, the neighbour sums, the two transposed weight matrices and the bias as a one-row matrix, entry
  (p, q) is ( sum_k feat[seed p, k] * w4T[k, q] + b2[0, q] ) + sum_k ( h[p, k] * 2^-4 ) * w3T[k, q].  One entry of
  what a grid point stores is this function at the matching output index once the loaded blocks are the matching rows
  of the arrays; and with the transposes and the recast bias read back it is the specification's array.
-/
import proofs.«139446_j54494545052116_2_alg».proof.Proof.KernelPayload
import proofs.«139446_j54494545052116_2_alg».proof.Proof.Spec
import Idealize.ShloMosaic.Lib.ValueLayout

noncomputable section

namespace Cert.KernelIdeal.Hand

open Cert.KernelIdeal Idealize.ShloMosaic Idealize.ShloMosaic.ValueIdx

/-- The kernel's result from the arrays behind its operands: the features, the neighbour sums, the two transposed
    weight matrices and the one-row bias. -/
def ofOperands (feat : FVec Ideal S1088000x128 .f32) (h : FVec Ideal S64000x128 .f32) (w3T w4T : FVec Ideal S128x128 .f32)
    (b2 : FVec Ideal S1x128 .f32) : FVec Ideal S64000x128 .f32 := fun i =>
  ((∑ k : Fin 128, feat (ix2 (Cert.Spec.seedRow (i 0)) k) * w4T (ix2 k (i 1))) + b2 (ix2 (0 : Fin 1) (i 1)))
    + ∑ k : Fin 128, (h (ix2 (i 0) k) * Ideal.ofBits .f32 0x3D800000#32) * w3T (ix2 k (i 1))

/-- One entry of what a point stores is the entry of the whole-array function at the matching output index, when
    the loaded blocks are the matching rows of the arrays. -/
theorem point_entry (x0 x1 : Vec Ideal S4000x128 .f32) (x2 x3 : Vec Ideal S128x128 .f32) (x4 : Vec Ideal S1x128 .f32)
    (feat : FVec Ideal S1088000x128 .f32) (h : FVec Ideal S64000x128 .f32) (w3T w4T : FVec Ideal S128x128 .f32)
    (b2 : FVec Ideal S1x128 .f32) (y : S4000x128.Idx) (i : S64000x128.Idx) (hi1 : (i 1).val = (y 1).val)
    (h0 : ∀ k : Fin 128, x0 (ix2 (y 0) k) = h (ix2 (i 0) k))
    (h1 : ∀ k : Fin 128, x1 (ix2 (y 0) k) = feat (ix2 (Cert.Spec.seedRow (i 0)) k))
    (h2 : x2 = w3T) (h3 : x3 = w4T) (h4 : x4 = b2) :
    Gen.k0_pay1 x0 x1 x2 x3 x4 y = ofOperands feat h w3T w4T b2 i := by
  subst h2 h3 h4
  obtain ⟨p, q, rfl⟩ : ∃ (p : Fin 4000) (q : Fin 128), y = ix2 p q := ⟨y 0, y 1, eq_ix2 y⟩
  have hq : (i 1) = q := Fin.ext hi1
  rw [pay_apply]
  unfold ofOperands
  rw [hq]
  congr 1
  · congr 1
    exact Finset.sum_congr rfl fun k _ => by rw [h1 k]
  · exact Finset.sum_congr rfl fun k _ => by rw [h0 k]

/-- With the weight matrices transposed and the bias recast as one row, the whole-array function is the
    specification's array. -/
theorem ofOperands_spec (feat : FVec Ideal S1088000x128 .f32) (h : FVec Ideal S64000x128 .f32) (w3 w4 : FVec Ideal S128x128 .f32)
    (b : FVec Ideal S128 .f32) (ht : S128x128.Transposes [1, 0] S128x128) (hc : S128.ShapeCasts S1x128) :
    ofOperands feat h (transpose S128x128 [1, 0] w3 ht) (transpose S128x128 [1, 0] w4 ht) (shapeCast S1x128 b hc)
      = Cert.Spec.G feat h w3 w4 b := by
  funext i
  obtain ⟨p, q, rfl⟩ : ∃ (p : Fin 64000) (q : Fin 128), i = ix2 p q := ⟨i 0, i 1, eq_ix2 i⟩
  rw [Cert.Spec.G_apply]
  unfold ofOperands Cert.Spec.entry
  show ((∑ k : Fin 128, feat (ix2 (Cert.Spec.seedRow p) k) * transpose S128x128 [1, 0] w4 ht (ix2 k q))
        + shapeCast S1x128 b hc (ix2 (0 : Fin 1) q))
      + ∑ k : Fin 128, (h (ix2 p k) * Ideal.ofBits .f32 0x3D800000#32) * transpose S128x128 [1, 0] w3 ht (ix2 k q) = _
  rw [shapeCast_a_1a_apply]
  congr 1
  · congr 1
    exact Finset.sum_congr rfl fun k _ => by rw [transpose_ix2_apply]
  · exact Finset.sum_congr rfl fun k _ => by rw [transpose_ix2_apply]

end Cert.KernelIdeal.Hand

end
-- ==== Proof.KernelHost.lean ====
/-
  What the kernel's region finds in the buffers of its operands.

  Before the region the host computes, in three stretches, the partition number of every edge, then the neighbour
  sums together with the two transposed weight matrices and the bias as a one-row matrix.  The contents at the
  region's entry are the fold of the three stretches, in order, over the launch contents.  The last stretch leaves
  the transposes of the two weight arguments and the bias recast in their buffers.
-/
import proofs.«139446_j54494545052116_2_alg».proof.Proof.Gen.KernelIdeal.Frame
import Idealize.ShloMosaic.PureOps.Ideal

noncomputable section

namespace Cert.KernelIdeal.Hand

open Cert.KernelIdeal Idealize.ShloMosaic Idealize.ShloMosaic.TcCoe Idealize.SL.Sem Idealize.ShloMosaic.StableHlo

variable (m : (ℓ : Loc nD τ sig) → Buf (Elt Ideal) ℓ)

/-- The contents at the region's entry: the three stretches folded in order over the launch contents. -/
theorem V_split (c : Dev nD) (b : Ref sig .tc) :
    Gen.V m c b = after Gen.hostOps0_2 (after Gen.hostOps0_1 (after Gen.hostOps0 (fun b => m (c, b)))) (b : DevRef τ sig) := by
  dsimp only [Gen.V]
  rw [List.flatten_cons, List.flatten_cons, List.flatten_cons, List.flatten_nil, List.append_nil,
    StableHlo.after_append, StableHlo.after_append]

/-- The last stretch leaves the first weight argument transposed in the third operand's buffer. -/
theorem tail_v20 (W : Valuation τ sig (Elt Ideal)) :
    after Gen.hostOps0_2 W (main_v20 : DevRef τ sig)
      = transpose S128x128 [1, 0] (W (main_arg3 : DevRef τ sig)) Gen.transposes_S128x128_S128x128_1_0 := by
  dsimp only [Gen.hostOps0_2]
  after_results

/-- The last stretch leaves the second weight argument transposed in the fourth operand's buffer. -/
theorem tail_v21 (W : Valuation τ sig (Elt Ideal)) :
    after Gen.hostOps0_2 W (main_v21 : DevRef τ sig)
      = transpose S128x128 [1, 0] (W (main_arg4 : DevRef τ sig)) Gen.transposes_S128x128_S128x128_1_0 := by
  dsimp only [Gen.hostOps0_2]
  after_results

/-- The last stretch leaves the bias, recast as a one-row matrix, in the fifth operand's buffer. -/
theorem tail_v22 (W : Valuation τ sig (Elt Ideal)) :
    after Gen.hostOps0_2 W (main_v22 : DevRef τ sig)
      = shapeCast S1x128 (W (main_arg5 : DevRef τ sig)) Gen.shapeCasts_S128_S1x128 := by
  dsimp only [Gen.hostOps0_2]
  after_results
  rfl

/-- The first two stretches write none of the arguments. -/
theorem head_arg (W : Valuation τ sig (Elt Ideal)) :
    after Gen.hostOps0_1 (after Gen.hostOps0 W) (main_arg0 : DevRef τ sig) = W (main_arg0 : DevRef τ sig)
    ∧ after Gen.hostOps0_1 (after Gen.hostOps0 W) (main_arg1 : DevRef τ sig) = W (main_arg1 : DevRef τ sig)
    ∧ after Gen.hostOps0_1 (after Gen.hostOps0 W) (main_arg2 : DevRef τ sig) = W (main_arg2 : DevRef τ sig)
    ∧ after Gen.hostOps0_1 (after Gen.hostOps0 W) (main_arg3 : DevRef τ sig) = W (main_arg3 : DevRef τ sig)
    ∧ after Gen.hostOps0_1 (after Gen.hostOps0 W) (main_arg4 : DevRef τ sig) = W (main_arg4 : DevRef τ sig)
    ∧ after Gen.hostOps0_1 (after Gen.hostOps0 W) (main_arg5 : DevRef τ sig) = W (main_arg5 : DevRef τ sig) := by
  dsimp only [Gen.hostOps0_1, Gen.hostOps0]
  refine ⟨?_, ?_, ?_, ?_, ?_, ?_⟩ <;> after_results

/-- The transposed first weight argument, as the region finds it. -/
theorem V_v20 (c : Dev nD) : Gen.V m c main_v20
    = transpose S128x128 [1, 0] (m ((c : Thread nD τ).loc main_arg3)) Gen.transposes_S128x128_S128x128_1_0 := by
  rw [V_split, tail_v20, (head_arg _).2.2.2.1]

/-- The transposed second weight argument, as the region finds it. -/
theorem V_v21 (c : Dev nD) : Gen.V m c main_v21
    = transpose S128x128 [1, 0] (m ((c : Thread nD τ).loc main_arg4)) Gen.transposes_S128x128_S128x128_1_0 := by
  rw [V_split, tail_v21, (head_arg _).2.2.2.2.1]

/-- The bias as a one-row matrix, as the region finds it. -/
theorem V_v22 (c : Dev nD) : Gen.V m c main_v22
    = shapeCast S1x128 (m ((c : Thread nD τ).loc main_arg5)) Gen.shapeCasts_S128_S1x128 := by
  rw [V_split, tail_v22, (head_arg _).2.2.2.2.2]

end Cert.KernelIdeal.Hand

end
-- ==== Proof.KernelValue.lean ====
/-
  The kernel's result array.

  What grid point t writes back is block t of the whole-array function of the arrays behind the five operands,
  whatever those arrays hold: each loaded block is the matching rows of its array, and the seed rows of the point's
  output rows r = 4000 t + y, namely (r / 16000) * 272000 + r % 16000, are the rows ((t / 4) * 68 + t % 4) * 4000 + y
  its feature block holds.  The 16 blocks tile the output, so the output array ends as that function; and with the
  operands' arrays read back (the features as launched, the transposes of the two weight arguments, the bias recast
  as one row) it is the specification's array of the arguments and of the neighbour sums the region finds.
-/
import proofs.«139446_j54494545052116_2_alg».proof.Proof.Gen.KernelIdeal.Value
import proofs.«139446_j54494545052116_2_alg».proof.Proof.KernelBlocks
import proofs.«139446_j54494545052116_2_alg».proof.Proof.KernelPoint
import proofs.«139446_j54494545052116_2_alg».proof.Proof.KernelHost

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Whatever arrays are behind the five operands, what the body stores at point `t` from their blocks, written back,
    is block `t` of the whole-array function of those arrays. -/
theorem stored_eq (c : Dev nD) (t : Fin cfg0.N) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4))) :
    (cfg0.win 5).cut (grid0.coords t) (out0_5 (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4))
      = ((cfg0.win 5).blk t).view.read (Elt Ideal) (ofOperands A1 A0 A2 A3 A4) := by
  unfold out0_5
  rw [View.canon_unit_zero offs_zero]
  simp only [View.ld_unit_zero (S := S4000x128) offs_zero, View.ld_unit_zero (S := S128x128) offs_zero,
    View.ld_unit_zero (S := S1x128) offs_zero]
  have ht : t.val < 16 := lt_of_lt_of_eq t.isLt N_0
  funext j
  obtain ⟨c0, c1⟩ := out_emb t j
  have hj0 : (j 0).val < 4000 := (j 0).isLt
  show k0_pay1 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) j
    = ofOperands A1 A0 A2 A3 A4 (((cfg0.win 5).blk t).view.emb j)
  exact point_entry _ _ _ _ _ A1 A0 A2 A3 A4 j (((cfg0.win 5).blk t).view.emb j) c1
    (fun k => blk0_read c t A0 (ix2 (j 0) k) (ix2 ((((cfg0.win 5).blk t).view.emb j) 0) k) c0 rfl)
    (fun k => blk1_read c t A1 (ix2 (j 0) k) (ix2 (Cert.Spec.seedRow ((((cfg0.win 5).blk t).view.emb j) 0)) k)
      (by
        show ((((cfg0.win 5).blk t).view.emb j) 0).val / 16000 * 272000 + ((((cfg0.win 5).blk t).view.emb j) 0).val % 16000
          = ((t.val / 4) * 68 + t.val % 4) * 4000 + (j 0).val
        rw [c0]; omega) rfl)
    (blk2_read c t A2) (blk3_read c t A3) (blk4_read c t A4)

/-- What point `t` writes back is block `t` of the whole-array function of the arrays the region finds. -/
theorem flushed_eq (c : Dev nD) (t : Fin cfg0.N) :
    (dats m 0 c).flushed 5 t = ((cfg0.win 5).blk t).view.read (Elt Ideal)
      (ofOperands (V m c (Pipeline.arrRef spec0 1)) (V m c (Pipeline.arrRef spec0 0)) (V m c (Pipeline.arrRef spec0 2))
        (V m c (Pipeline.arrRef spec0 3)) (V m c (Pipeline.arrRef spec0 4))) := by
  rw [flushed5]
  unfold iblk
  exact stored_eq c t _ _ _ _ _

/-- The output array after the run, from the arrays the region finds behind the operands, given what those are. -/
theorem final_of (c : Dev nD) (feat : FVec Ideal S1088000x128 .f32) (h : FVec Ideal S64000x128 .f32)
    (w3T w4T : FVec Ideal S128x128 .f32) (b2 : FVec Ideal S1x128 .f32)
    (e1 : (V m c (Pipeline.arrRef spec0 1)) = feat) (e0 : (V m c (Pipeline.arrRef spec0 0)) = h) (e2 : (V m c (Pipeline.arrRef spec0 2)) = w3T)
    (e3 : (V m c (Pipeline.arrRef spec0 3)) = w4T) (e4 : (V m c (Pipeline.arrRef spec0 4)) = b2) :
    (dats m 0 c).arrAt 5 cfg0.N = ofOperands feat h w3T w4T b2 := by
  subst e1 e0 e2 e3 e4
  exact (dats m 0 c).arrAt_eq_of_cover 5 _ (fun t _ => flushed_eq m c t) cover

/-- The output array after the run is the specification's array of the arguments and of the neighbour sums the
    region finds. -/
theorem final (c : Dev nD) : (dats m 0 c).arrAt 5 cfg0.N
    = Cert.Spec.G (m ((c : Thread nD τ).loc main_arg0)) (V m c main_v19) (m ((c : Thread nD τ).loc main_arg3))
        (m ((c : Thread nD τ).loc main_arg4)) (m ((c : Thread nD τ).loc main_arg5)) :=
  (final_of m c _ _ _ _ _ (V_main_arg0 m c) rfl (V_v20 m c) (V_v21 m c) (V_v22 m c)).trans
    (ofOperands_spec _ _ _ _ _ _ _)

/-- The kernel's run, read: the result array is the specification's array of the arguments and of the neighbour sums
    the region finds; the arguments are unchanged. -/
theorem run : θ_run defs (onTc (τ := τ) (main (F := Ideal))) ⟨m, fun _ => 0, ρ⟩ fun r => ∀ c : Dev nD,
      r.2.mem ((c : Thread nD τ).loc main_v23)
        = Cert.Spec.G (m ((c : Thread nD τ).loc main_arg0)) (V m c main_v19) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefRun.lean ====
/-
  The reference program's run, read back.

  Its main function is a straight line of host operations once the two functions it calls (a floor division and
  the select inside it) are unfolded at their call sites.  The line is cut into three stretches:
  the first computes, for every edge, the number of the partition it belongs to (edge number floor-divided by 256000);
  the second turns the per-partition row and column numbers into global ones, gathers the source rows of the
  feature matrix and adds every gathered row onto its destination row (the neighbour sums);
  the third divides by the fanout, multiplies by the two weight matrices, adds the bias and the two products.
  Every weakly fair execution terminates with each buffer at the fold of the three stretches over the launch contents.
-/
import proofs.«139446_j54494545052116_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Facts₀

variable {F : FTy → Type} [FloatOps F]

/-- The partition number of every edge: the edge numbers, the constant 256000, and the floor division's operations. -/
abbrev opsPart : List (HloOp τ sig (Elt F)) :=
  [ StableHlo.nullary main_v0 (iotaInDim S1024000 32 0),
    StableHlo.nullary main_c (constantI S_ 32 256000#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1024000, .i32⟩) (broadcastInDim S1024000 ![] bcast_S_S1024000),
    StableHlo.TRef.binary (.of main_v0 : StableHlo.TRef sig ⟨S1024000, .i32⟩) (.of main_call0_v1 : StableHlo.TRef sig ⟨S1024000, .i32⟩) (.of main_call0_v2 : StableHlo.TRef sig ⟨S1024000, .i32⟩) Host.divsi,
    StableHlo.TRef.unary (.of main_v0 : StableHlo.TRef sig ⟨S1024000, .i32⟩) (.of main_call0_v3 : StableHlo.TRef sig ⟨S1024000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1024000, .i32⟩) (broadcastInDim S1024000 ![] bcast_S_S1024000),
    StableHlo.TRef.binary (.of main_call0_v3 : StableHlo.TRef sig ⟨S1024000, .i32⟩) (.of main_call0_v5 : StableHlo.TRef sig ⟨S1024000, .i32⟩) (.of main_call0_v6 : StableHlo.TRef sig ⟨S1024000, .i1⟩) (cmpi .ne),
    StableHlo.TRef.unary (.of main_call0_v0 : StableHlo.TRef sig ⟨S_, .i32⟩) (.of main_call0_v7 : StableHlo.TRef sig ⟨S1024000, .i32⟩) (broadcastInDim S1024000 ![] bcast_S_S1024000),
    StableHlo.TRef.binary (.of main_v0 : StableHlo.TRef sig ⟨S1024000, .i32⟩) (.of main_call0_v7 : StableHlo.TRef sig ⟨S1024000, .i32⟩) (.of main_call0_v8 : StableHlo.TRef sig ⟨S1024000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1024000, .i32⟩) (broadcastInDim S1024000 ![] bcast_S_S1024000),
    StableHlo.TRef.binary (.of main_call0_v8 : StableHlo.TRef sig ⟨S1024000, .i32⟩) (.of main_call0_v9 : StableHlo.TRef sig ⟨S1024000, .i32⟩) (.of main_call0_v10 : StableHlo.TRef sig ⟨S1024000, .i1⟩) (cmpi .ne),
    StableHlo.TRef.binary (.of main_call0_v6 : StableHlo.TRef sig ⟨S1024000, .i1⟩) (.of main_call0_v10 : StableHlo.TRef sig ⟨S1024000, .i1⟩) (.of main_call0_v11 : StableHlo.TRef sig ⟨S1024000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1024000, .i32⟩) (broadcastInDim S1024000 ![] bcast_S_S1024000),
    StableHlo.TRef.binary (.of main_call0_v2 : StableHlo.TRef sig ⟨S1024000, .i32⟩) (.of main_call0_v12 : StableHlo.TRef sig ⟨S1024000, .i32⟩) (.of main_call0_v13 : StableHlo.TRef sig ⟨S1024000, .i32⟩) subi,
    StableHlo.TRef.ternary (.of main_call0_v11 : StableHlo.TRef sig ⟨S1024000, .i1⟩) (.of main_call0_v13 : StableHlo.TRef sig ⟨S1024000, .i32⟩) (.of main_call0_v2 : StableHlo.TRef sig ⟨S1024000, .i32⟩) (.of main_v1 : StableHlo.TRef sig ⟨S1024000, .i32⟩) select ]

/-- Global row and column numbers, the gather of the source rows and the sum of the gathered rows by destination. -/
abbrev opsSum : List (HloOp τ sig (Elt F)) :=
  [ StableHlo.nullary main_c_0 (constantI S_ 32 272000#32),
    StableHlo.unary main_c_0 main_v2 (broadcastInDim S1024000 ![] bcast_S_S1024000 : (⟨S_, .i32⟩ : BufTy).Contents (Elt F) → (⟨S1024000, .i32⟩ : BufTy).Contents (Elt F)),
    StableHlo.binary main_v1 main_v2 main_v3 (muli : (⟨S1024000, .i32⟩ : BufTy).Contents (Elt F) → (⟨S1024000, .i32⟩ : BufTy).Contents (Elt F) → (⟨S1024000, .i32⟩ : BufTy).Contents (Elt F)),
    StableHlo.binary main_v3 main_arg2 main_v4 (addi : (⟨S1024000, .i32⟩ : BufTy).Contents (Elt F) → (⟨S1024000, .i32⟩ : BufTy).Contents (Elt F) → (⟨S1024000, .i32⟩ : BufTy).Contents (Elt F)),
    StableHlo.nullary main_c_1 (constantI S_ 32 16000#32),
    StableHlo.unary main_c_1 main_v5 (broadcastInDim S1024000 ![] bcast_S_S1024000 : (⟨S_, .i32⟩ : BufTy).Contents (Elt F) → (⟨S1024000, .i32⟩ : BufTy).Contents (Elt F)),
    StableHlo.binary main_v1 main_v5 main_v6 (muli : (⟨S1024000, .i32⟩ : BufTy).Contents (Elt F) → (⟨S1024000, .i32⟩ : BufTy).Contents (Elt F) → (⟨S1024000, .i32⟩ : BufTy).Contents (Elt F)),
    StableHlo.binary main_v6 main_arg1 main_v7 (addi : (⟨S1024000, .i32⟩ : BufTy).Contents (Elt F) → (⟨S1024000, .i32⟩ : BufTy).Contents (Elt F) → (⟨S1024000, .i32⟩ : BufTy).Contents (Elt F)),
    StableHlo.nullary main_c_2 (constantI S_ 32 0#32),
    StableHlo.unary main_c_2 main_v8 (broadcastInDim S1024000 ![] bcast_S_S1024000 : (⟨S_, .i32⟩ : BufTy).Contents (Elt F) → (⟨S1024000, .i32⟩ : BufTy).Contents (Elt F)),
    StableHlo.binary main_v4 main_v8 main_v9 (cmpi .slt : (⟨S1024000, .i32⟩ : BufTy).Contents (Elt F) → (⟨S1024000, .i32⟩ : BufTy).Contents (Elt F) → (⟨S1024000, .i1⟩ : BufTy).Contents (Elt F)),
    StableHlo.nullary main_c_3 (constantI S_ 32 1088000#32),
    StableHlo.unary main_c_3 main_v10 (broadcastInDim S1024000 ![] bcast_S_S1024000 : (⟨S_, .i32⟩ : BufTy).Contents (Elt F) → (⟨S1024000, .i32⟩ : BufTy).Contents (Elt F)),
    StableHlo.binary main_v4 main_v10 main_v11 (addi : (⟨S1024000, .i32⟩ : BufTy).Contents (Elt F) → (⟨S1024000, .i32⟩ : BufTy).Contents (Elt F) → (⟨S1024000, .i32⟩ : BufTy).Contents (Elt F)),
    StableHlo.ternary main_v9 main_v11 main_v4 main_v12 (select : (⟨S1024000, .i1⟩ : BufTy).Contents (Elt F) → (⟨S1024000, .i32⟩ : BufTy).Contents (Elt F) → (⟨S1024000, .i32⟩ : BufTy).Contents (Elt F) → (⟨S1024000, .i32⟩ : BufTy).Contents (Elt F)),
    StableHlo.unary main_v12 main_v13 (broadcastInDim S1024000x1 ![0] bcast_S1024000_S1024000x1_0 : (⟨S1024000, .i32⟩ : BufTy).Contents (Elt F) → (⟨S1024000x1, .i32⟩ : BufTy).Contents (Elt F)),
    StableHlo.binary main_arg0 main_v13 main_v14 ((fun x i => Host.gather gather_S1088000x128_S1024000x1_S1024000x128_1_0_n_n_0_1_1128 x i) : (⟨S1088000x128, .f32⟩ : BufTy).Contents (Elt F) → (⟨S1024000x1, .i32⟩ : BufTy).Contents (Elt F) → (⟨S1024000x128, .f32⟩ : BufTy).Contents (Elt F)),
    StableHlo.nullary main_cst (constant S_ .f32 0x00000000#32),
    StableHlo.unary main_cst main_v15 (broadcastInDim S64000x128 ![] bcast_S_S64000x128 : (⟨S_, .f32⟩ : BufTy).Contents (Elt F) → (⟨S64000x128, .f32⟩ : BufTy).Contents (Elt F)),
    StableHlo.unary main_v7 main_v16 (broadcastInDim S1024000x1 ![0] bcast_S1024000_S1024000x1_0 : (⟨S1024000, .i32⟩ : BufTy).Contents (Elt F) → (⟨S1024000x1, .i32⟩ : BufTy).Contents (Elt F)),
    StableHlo.ternary main_v15 main_v16 main_v14 main_v17 ((fun x i u => Host.scatterAdd scatter_S64000x128_S1024000x1_S1024000x128_1_0_0_1 x i u) : (⟨S64000x128, .f32⟩ : BufTy).Contents (Elt F) → (⟨S1024000x1, .i32⟩ : BufTy).Contents (Elt F) → (⟨S1024000x128, .f32⟩ : BufTy).Contents (Elt F) → (⟨S64000x128, .f32⟩ : BufTy).Contents (Elt F)) ]

/-- The mean over the fanout, the two products with the weights, the bias and the final sum. -/
abbrev opsDense : List (HloOp τ sig (Elt F)) :=
  [ StableHlo.nullary main_cst_4 (constant S_ .f32 0x41800000#32),
    StableHlo.unary main_cst_4 main_v18 (broadcastInDim S64000x128 ![] bcast_S_S64000x128 : (⟨S_, .f32⟩ : BufTy).Contents (Elt F) → (⟨S64000x128, .f32⟩ : BufTy).Contents (Elt F)),
    StableHlo.binary main_v17 main_v18 main_v19 (Host.divf : (⟨S64000x128, .f32⟩ : BufTy).Contents (Elt F) → (⟨S64000x128, .f32⟩ : BufTy).Contents (Elt F) → (⟨S64000x128, .f32⟩ : BufTy).Contents (Elt F)),
    StableHlo.unary main_arg3 main_v20 ((transpose S128x128 [1, 0] · transposes_S128x128_S128x128_1_0) : (⟨S128x128, .f32⟩ : BufTy).Contents (Elt F) → (⟨S128x128, .f32⟩ : BufTy).Contents (Elt F)),
    StableHlo.binary main_v19 main_v20 main_v21 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    StableHlo.reshape main_arg0 main_v22 rfl shapeCasts_S1088000x128_S4x272000x128,
    StableHlo.unary main_v22 main_v23 ((extractStridedSlice S4x16000x128 ![0, 0, 0] · slices_S4x272000x128_S4x16000x128_0_0_0) : (⟨S4x272000x128, .f32⟩ : BufTy).Contents (Elt F) → (⟨S4x16000x128, .f32⟩ : BufTy).Contents (Elt F)),
    StableHlo.reshape main_v23 main_v24 rfl shapeCasts_S4x16000x128_S64000x128,
    StableHlo.unary main_arg4 main_v25 ((transpose S128x128 [1, 0] · transposes_S128x128_S128x128_1_0) : (⟨S128x128, .f32⟩ : BufTy).Contents (Elt F) → (⟨S128x128, .f32⟩ : BufTy).Contents (Elt F)),
    StableHlo.binary main_v24 main_v25 main_v26 ((fun l r => Host.dotGeneral dot_S64000x128_S128x128_S64000x128_1_0_0_1_n_n none l r) : (⟨S64000x128, .f32⟩ : BufTy).Contents (Elt F) → (⟨S128x128, .f32⟩ : BufTy).Contents (Elt F) → (⟨S64000x128, .f32⟩ : BufTy).Contents (Elt F)),
    StableHlo.unary main_arg5 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S64000x128 ![0, 1] bcast_S1x128_S64000x128_0_1 : (⟨S1x128, .f32⟩ : BufTy).Contents (Elt F) → (⟨S64000x128, .f32⟩ : BufTy).Contents (Elt F)),
    StableHlo.binary main_v26 main_v28 main_v29 (addf : (⟨S64000x128, .f32⟩ : BufTy).Contents (Elt F) → (⟨S64000x128, .f32⟩ : BufTy).Contents (Elt F) → (⟨S64000x128, .f32⟩ : BufTy).Contents (Elt F)),
    StableHlo.binary main_v29 main_v21 main_v30 (addf : (⟨S64000x128, .f32⟩ : BufTy).Contents (Elt F) → (⟨S64000x128, .f32⟩ : BufTy).Contents (Elt F) → (⟨S64000x128, .f32⟩ : BufTy).Contents (Elt F)) ]

/-- The whole line. -/
abbrev ops : List (HloOp τ sig (Elt F)) := opsPart ++ (opsSum ++ opsDense)

set_option maxRecDepth 4096 in
/-- The main function is that line: the called functions unfolded at their calls, sequencing reassociated. -/
theorem main_eq (c : Dev nD) : main (F := F) c = seq ops := by
  simp only [main, fn_floor_divide.body, fn_where.body, ops, opsPart, opsSum, opsDense, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsPart_sub : (opsPart : List (HloOp τ sig (Elt F))).Forall fun op => op.bufs ⊆ tcRefs τ sig :=
  ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem opsSum_sub : (opsSum : List (HloOp τ sig (Elt F))).Forall fun op => op.bufs ⊆ tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩
theorem opsDense_sub : (opsDense : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub .., StableHlo.binary_bufs_sub ..⟩

theorem opsPart_fresh : (opsPart : List (HloOp τ sig (Elt F))).Forall fun op => op.fresh = ∅ := by
  simp only [List.Forall]; repeat' constructor
theorem opsSum_fresh : (opsSum : List (HloOp τ sig (Elt F))).Forall fun op => op.fresh = ∅ := by
  simp only [List.Forall]; repeat' constructor
theorem opsDense_fresh : (opsDense : List (HloOp τ sig (Elt F))).Forall fun op => op.fresh = ∅ := by
  simp only [List.Forall]; repeat' constructor

theorem ops_fresh : ∀ op ∈ (ops : List (HloOp τ sig (Elt F))), op.fresh = ∅ := by
  intro op hop
  rcases List.mem_append.mp hop with h | h
  · exact List.forall_iff_forall_mem.mp opsPart_fresh op h
  · rcases List.mem_append.mp h with h | h
    · exact List.forall_iff_forall_mem.mp opsSum_fresh op h
    · exact List.forall_iff_forall_mem.mp opsDense_fresh op h

theorem ops_sub : (ops : List (HloOp τ sig (Elt F))).Forall fun op => op.bufs ⊆ tcRefs τ sig := by
  unfold ops
  rw [List.forall_append, List.forall_append]
  exact ⟨opsPart_sub, opsSum_sub, opsDense_sub⟩

/-- Every weakly fair execution of the reference terminates, and every buffer ends at the fold of the three
    stretches, in order, over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsDense (after opsSum (after opsPart (launchContents m c))) (b : DevRef τ sig) := by
  have h := run_seq scopedRefs_eq scopedSems_eq defs main (fun _ => ops) main_eq (fun _ => ops_sub) m ρ
    (fun _ => ops_fresh)
  refine (θ_run defs _ _).mono (fun r hr c b => ?_) h
  rw [hr c b]
  show after (opsPart ++ (opsSum ++ opsDense)) _ _ = _
  rw [StableHlo.after_append, StableHlo.after_append]

end Cert.ReferenceIdeal.Hand

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.RefRead.lean ====
/-
  The reference's third stretch read at an entry.

  From the neighbour sums h, the features and the parameters it computes
  (seeds @ ws^T + b) + ((h / 16) @ wn^T), the seed rows being the first 16000 rows of each partition's 272000-row
  slice of the feature matrix (a reshape to 4 x 272000 x 128, a slice, a reshape back).  Entry by entry that is the
  specification's function: each host product is a sum over the contracted axis, a transposed weight matrix read at
  (k, q) is the weight matrix at (q, k), the twice-broadcast bias read at (p, q) is b[q], and the quotient by the
  float 16 is the product with the float 2^-4.
-/
import proofs.«139446_j54494545052116_2_alg».proof.Proof.RefRun
import proofs.«139446_j54494545052116_2_alg».proof.Proof.Spec
import proofs.«139446_j54494545052116_2_alg».proof.Proof.LibDotPlain
import Idealize.ShloMosaic.Lib.Pipeline.Value
import Idealize.ShloMosaic.Lib.ValueLayout

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Facts₀

/-- The third stretch as a function of the arrays it reads. -/
def dense (feat : FVec Ideal S1088000x128 .f32) (h : FVec Ideal S64000x128 .f32) (w3 w4 : FVec Ideal S128x128 .f32)
    (b : FVec Ideal S128 .f32) : FVec Ideal S64000x128 .f32 :=
  addf
    (addf
      (Host.dotGeneral dot_S64000x128_S128x128_S64000x128_1_0_0_1_n_n none
        (shapeCast S64000x128
          (extractStridedSlice S4x16000x128 ![0, 0, 0] (shapeCast S4x272000x128 feat shapeCasts_S1088000x128_S4x272000x128)
            slices_S4x272000x128_S4x16000x128_0_0_0)
          shapeCasts_S4x16000x128_S64000x128)
        (transpose S128x128 [1, 0] w4 transposes_S128x128_S128x128_1_0))
      (broadcastInDim S64000x128 ![0, 1] bcast_S1x128_S64000x128_0_1 (broadcastInDim S1x128 ![1] bcast_S128_S1x128_1 b)))
    (Host.dotGeneral dot_S64000x128_S128x128_S64000x128_1_0_0_1_n_n none
      (Host.divf h (broadcastInDim S64000x128 ![] bcast_S_S64000x128 (constant (F := Ideal) S_ .f32 0x41800000#32)))
      (transpose S128x128 [1, 0] w3 transposes_S128x128_S128x128_1_0))

/-- The fold of the third stretch at the result buffer is that function of the contents it starts from. -/
theorem dense_read (W : Valuation τ sig (Elt Ideal)) :
    after opsDense W (main_v30 : DevRef τ sig)
      = dense (W (main_arg0 : DevRef τ sig)) (W (main_v17 : DevRef τ sig)) (W (main_arg3 : DevRef τ sig))
          (W (main_arg4 : DevRef τ sig)) (W (main_arg5 : DevRef τ sig)) := by
  after_results
  rfl

/-- Row `p` of the seed rows (the features reshaped to 4 x 272000 x 128, cut to the first 16000 rows of each
    partition, reshaped back) is row `(p / 16000) * 272000 + p % 16000` of the features. -/
theorem seeds_apply (feat : FVec Ideal S1088000x128 .f32) (p : Fin 64000) (k : Fin 128) :
    shapeCast S64000x128
        (extractStridedSlice S4x16000x128 ![0, 0, 0] (shapeCast S4x272000x128 feat shapeCasts_S1088000x128_S4x272000x128)
          slices_S4x272000x128_S4x16000x128_0_0_0)
        shapeCasts_S4x16000x128_S64000x128 (ix2 p k)
      = feat (ix2 (Cert.Spec.seedRow p) k) := by
  have hp := p.isLt
  rw [shapeCast_apply _ _ (ix2 p k) (ix3 (⟨p.val / 16000, by omega⟩ : Fin 4) (⟨p.val % 16000, by omega⟩ : Fin 16000) k) (by
    rw [Shape.rowMajor_val_two, Shape.rowMajor_val_three]
    show ((p.val / 16000) * 16000 + p.val % 16000) * 128 + k.val = p.val * 128 + k.val
    omega)]
  rw [slice3_axis1_eq 0]
  exact shapeCast_apply _ _ _ (ix2 (Cert.Spec.seedRow p) k) (by
    rw [Shape.rowMajor_val_two, Shape.rowMajor_val_three]
    show ((p.val / 16000) * 272000 + p.val % 16000) * 128 + k.val
      = ((p.val / 16000) * 272000 + (0 + p.val % 16000)) * 128 + k.val
    omega)

/-- The bias broadcast to a row and then over all rows reads, at `(p, q)`, its entry `q`. -/
theorem bias_apply (b : FVec Ideal S128 .f32) (p : Fin 64000) (q : Fin 128) :
    broadcastInDim S64000x128 ![0, 1] bcast_S1x128_S64000x128_0_1 (broadcastInDim S1x128 ![1] bcast_S128_S1x128_1 b) (ix2 p q)
      = b (ix1 q) := by
  rw [broadcastInDim_apply _ _ _ (ix2 p q) (ix2 (0 : Fin 1) q) (fun a => by
    match a with
    | ⟨0, _⟩ => rfl
    | ⟨1, _⟩ => rfl)]
  exact broadcastInDim_apply _ _ _ (ix2 (0 : Fin 1) q) (ix1 q) (fun a => by
    match a with
    | ⟨0, _⟩ => rfl)

/-- The third stretch, entry by entry, is the specification's function. -/
theorem dense_apply (feat : FVec Ideal S1088000x128 .f32) (h : FVec Ideal S64000x128 .f32) (w3 w4 : FVec Ideal S128x128 .f32)
    (b : FVec Ideal S128 .f32) (p : Fin 64000) (q : Fin 128) :
    dense feat h w3 w4 b (ix2 p q) = Cert.Spec.entry feat h w3 w4 b p q := by
  unfold dense Cert.Spec.entry
  rw [addf_apply, addf_apply,
    Cert.LibDotPlain.dotGeneral_apply _ rfl rfl rfl rfl rfl rfl,
    Cert.LibDotPlain.dotGeneral_apply _ rfl rfl rfl rfl rfl rfl,
    bias_apply]
  congr 1
  · congr 1
    refine Finset.sum_congr rfl fun k _ => ?_
    rw [seeds_apply, transpose_ix2_apply]
  · refine Finset.sum_congr rfl fun k _ => ?_
    rw [transpose_ix2_apply]
    show Ideal.div (h (ix2 p k)) (Ideal.ofBits .f32 0x41800000#32) * _ = _
    rw [Cert.Spec.div_sixteen]

/-- So the reference's result, whatever contents the third stretch starts from, is the specification's array of
    the features, the neighbour sums found in their buffer, the two weight matrices and the bias. -/
theorem dense_eq (W : Valuation τ sig (Elt Ideal)) :
    after opsDense W (main_v30 : DevRef τ sig)
      = Cert.Spec.G (W (main_arg0 : DevRef τ sig)) (W (main_v17 : DevRef τ sig)) (W (main_arg3 : DevRef τ sig))
          (W (main_arg4 : DevRef τ sig)) (W (main_arg5 : DevRef τ sig)) := by
  rw [dense_read]
  funext i
  obtain ⟨p, q, rfl⟩ : ∃ (p : Fin 64000) (q : Fin 128), i = ix2 p q := ⟨i 0, i 1, eq_ix2 i⟩
  exact dense_apply _ _ _ _ _ p q

end Cert.ReferenceIdeal.Hand

end
-- ==== Proof.RefArgs.lean ====
/-
  None of the reference's three stretches writes an argument: after each, the six argument buffers hold what they
  held before it.
-/
import proofs.«139446_j54494545052116_2_alg».proof.Proof.RefRun
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The first stretch keeps the arguments. -/
theorem part_args (W : Valuation τ sig (Elt F)) :
    after opsPart W (main_arg0 : DevRef τ sig) = W (main_arg0 : DevRef τ sig)
    ∧ after opsPart W (main_arg1 : DevRef τ sig) = W (main_arg1 : DevRef τ sig)
    ∧ after opsPart W (main_arg2 : DevRef τ sig) = W (main_arg2 : DevRef τ sig)
    ∧ after opsPart W (main_arg3 : DevRef τ sig) = W (main_arg3 : DevRef τ sig)
    ∧ after opsPart W (main_arg4 : DevRef τ sig) = W (main_arg4 : DevRef τ sig)
    ∧ after opsPart W (main_arg5 : DevRef τ sig) = W (main_arg5 : DevRef τ sig) := by
  dsimp only [opsPart]
  refine ⟨?_, ?_, ?_, ?_, ?_, ?_⟩ <;> after_results

/-- The second stretch keeps the arguments. -/
theorem sum_args (W : Valuation τ sig (Elt F)) :
    after opsSum W (main_arg0 : DevRef τ sig) = W (main_arg0 : DevRef τ sig)
    ∧ after opsSum W (main_arg1 : DevRef τ sig) = W (main_arg1 : DevRef τ sig)
    ∧ after opsSum W (main_arg2 : DevRef τ sig) = W (main_arg2 : DevRef τ sig)
    ∧ after opsSum W (main_arg3 : DevRef τ sig) = W (main_arg3 : DevRef τ sig)
    ∧ after opsSum W (main_arg4 : DevRef τ sig) = W (main_arg4 : DevRef τ sig)
    ∧ after opsSum W (main_arg5 : DevRef τ sig) = W (main_arg5 : DevRef τ sig) := by
  dsimp only [opsSum]
  refine ⟨?_, ?_, ?_, ?_, ?_, ?_⟩ <;> after_results

/-- The third stretch keeps the arguments. -/
theorem dense_args (W : Valuation τ sig (Elt F)) :
    after opsDense W (main_arg0 : DevRef τ sig) = W (main_arg0 : DevRef τ sig)
    ∧ after opsDense W (main_arg1 : DevRef τ sig) = W (main_arg1 : DevRef τ sig)
    ∧ after opsDense W (main_arg2 : DevRef τ sig) = W (main_arg2 : DevRef τ sig)
    ∧ after opsDense W (main_arg3 : DevRef τ sig) = W (main_arg3 : DevRef τ sig)
    ∧ after opsDense W (main_arg4 : DevRef τ sig) = W (main_arg4 : DevRef τ sig)
    ∧ after opsDense W (main_arg5 : DevRef τ sig) = W (main_arg5 : DevRef τ sig) := by
  dsimp only [opsDense]
  refine ⟨?_, ?_, ?_, ?_, ?_, ?_⟩ <;> after_results

/-- The third stretch does not write the neighbour sums it reads. -/
theorem dense_sums (W : Valuation τ sig (Elt F)) :
    after opsDense W (main_v17 : DevRef τ sig) = W (main_v17 : DevRef τ sig) := by
  dsimp only [opsDense]
  after_results

end Cert.ReferenceIdeal.Hand

end
-- ==== Proof.Shared.lean ====
/-
  The neighbour sums are one array in both programs.

  Both programs compute them on the host by the same operations: the partition number of every edge (the edge
  number floor-divided by 256000), the global column and row numbers from the per-partition ones, the gather of
  the source rows of the features and the sum of the gathered rows by destination row.  The kernel's program
  additionally rounds the gathered rows to the 16-bit float format and widens them back, which is the identity
  on the extended reals.  So from launch contents that agree on the features and the two index arrays, the
  buffer the kernel's region reads the neighbour sums from and the buffer the reference divides by the fanout
  hold the same array.  The chain of operations is compared as a whole and never opened.
-/
import proofs.«139446_j54494545052116_2_alg».proof.Proof.Gen.KernelIdeal.Launch
import proofs.«139446_j54494545052116_2_alg».proof.Proof.RefRun
import Idealize.ShloMosaic.PureOps.Ideal

noncomputable section

namespace Cert.Shared

open Idealize.ShloMosaic Idealize.ShloMosaic.TcCoe Idealize.SL.Sem Idealize.ShloMosaic.StableHlo

/-- The edges' partition numbers are the same closed array in both programs, whatever the launch contents. -/
theorem part_eq (W : Valuation Cert.KernelIdeal.τ Cert.KernelIdeal.sig (Elt Ideal))
    (W' : Valuation Cert.ReferenceIdeal.τ Cert.ReferenceIdeal.sig (Elt Ideal)) :
    after Cert.KernelIdeal.Gen.hostOps0_1 (after Cert.KernelIdeal.Gen.hostOps0 W)
        (Cert.KernelIdeal.main_v1 : DevRef Cert.KernelIdeal.τ Cert.KernelIdeal.sig)
      = after Cert.ReferenceIdeal.Hand.opsPart W' (Cert.ReferenceIdeal.main_v1 : DevRef Cert.ReferenceIdeal.τ Cert.ReferenceIdeal.sig) := by
  dsimp only [Cert.KernelIdeal.Gen.hostOps0_1, Cert.KernelIdeal.Gen.hostOps0, Cert.ReferenceIdeal.Hand.opsPart]
  after_results_simp

/-- Rounding an array to the 16-bit float format and widening it back changes nothing on the extended reals. -/
theorem round_trip {s : Shape} (x : FVec Ideal s .f32) (h1 : FTy.bf16.bits < FTy.f32.bits) (h2 : FTy.bf16.bits < FTy.f32.bits) :
    extf .f32 (truncf .bf16 x h1) h2 = x := rfl

/-- From contents that agree on the partition numbers, the features and the two index arrays, the kernel's last
    host stretch and the reference's second stretch leave the same neighbour sums. -/
theorem sum_eq (W : Valuation Cert.KernelIdeal.τ Cert.KernelIdeal.sig (Elt Ideal))
    (W' : Valuation Cert.ReferenceIdeal.τ Cert.ReferenceIdeal.sig (Elt Ideal))
    (hp : W (Cert.KernelIdeal.main_v1 : DevRef Cert.KernelIdeal.τ Cert.KernelIdeal.sig)
      = W' (Cert.ReferenceIdeal.main_v1 : DevRef Cert.ReferenceIdeal.τ Cert.ReferenceIdeal.sig))
    (h0 : W (Cert.KernelIdeal.main_arg0 : DevRef Cert.KernelIdeal.τ Cert.KernelIdeal.sig)
      = W' (Cert.ReferenceIdeal.main_arg0 : DevRef Cert.ReferenceIdeal.τ Cert.ReferenceIdeal.sig))
    (h1 : W (Cert.KernelIdeal.main_arg1 : DevRef Cert.KernelIdeal.τ Cert.KernelIdeal.sig)
      = W' (Cert.ReferenceIdeal.main_arg1 : DevRef Cert.ReferenceIdeal.τ Cert.ReferenceIdeal.sig))
    (h2 : W (Cert.KernelIdeal.main_arg2 : DevRef Cert.KernelIdeal.τ Cert.KernelIdeal.sig)
      = W' (Cert.ReferenceIdeal.main_arg2 : DevRef Cert.ReferenceIdeal.τ Cert.ReferenceIdeal.sig)) :
    after Cert.KernelIdeal.Gen.hostOps0_2 W (Cert.KernelIdeal.main_v19 : DevRef Cert.KernelIdeal.τ Cert.KernelIdeal.sig)
      = after Cert.ReferenceIdeal.Hand.opsSum W' (Cert.ReferenceIdeal.main_v17 : DevRef Cert.ReferenceIdeal.τ Cert.ReferenceIdeal.sig) := by
  dsimp only [Cert.KernelIdeal.Gen.hostOps0_2, Cert.ReferenceIdeal.Hand.opsSum]
  after_results_simp
  rw [hp, h0, h1, h2, round_trip]
  rfl

end Cert.Shared

end
-- ==== Proof.lean ====
/-
  The kernel and its reference agree on the extended reals.

  Both programs first compute, on the host and by the same operations, the matrix of neighbour sums: for every edge
  the source row of the features (the per-partition column number made global) added onto the destination row (the
  per-partition row number made global).  The kernel then computes, 4000 output rows per grid point,
  (seeds @ ws^T + b) + ((sums * 2^-4) @ wn^T) with the seed rows addressed by its block index map; the reference
  computes (seeds @ ws^T + b) + ((sums / 16) @ wn^T) on whole arrays with the seed rows cut out by a reshape and a
  slice.  Entry by entry both are the specification's function (Proof/Spec.lean) of the arguments and of the
  neighbour sums; the neighbour sums are compared as a whole, never opened (Proof/Shared.lean).  The only law used
  beyond reading the operations at an index is that the quotient by the float 16 is the product with the float 2^-4
  on every extended real, so the finiteness of the inputs is not used.

  The kernel's run is the generated frame run read block by block (Proof/KernelValue.lean over the generated value
  module); the reference's run is its main function as a line of host operations in three stretches
  (Proof/RefRun.lean, Proof/RefRead.lean, Proof/RefArgs.lean).  The ideal pass rewrote nothing, so the idealized
  kernel is the kernel's own text and that claim is trivial.
-/
import proofs.«139446_j54494545052116_2_alg».proof.Defs
import proofs.«139446_j54494545052116_2_alg».proof.Proof.Gen.Kernel
import proofs.«139446_j54494545052116_2_alg».proof.Proof.Gen.Kernel.Frame
import proofs.«139446_j54494545052116_2_alg».proof.Proof.Gen.KernelIdeal
import proofs.«139446_j54494545052116_2_alg».proof.Proof.Gen.KernelIdeal.Frame
import proofs.«139446_j54494545052116_2_alg».proof.Proof.Gen.ReferenceIdeal
import proofs.«139446_j54494545052116_2_alg».proof.Proof.Gen.Pre_finite_inputs
import proofs.«139446_j54494545052116_2_alg».proof.Proof.KernelValue
import proofs.«139446_j54494545052116_2_alg».proof.Proof.RefRead
import proofs.«139446_j54494545052116_2_alg».proof.Proof.RefArgs
import proofs.«139446_j54494545052116_2_alg».proof.Proof.Shared
import Idealize.ShloMosaic.Adequacy
import Idealize.ShloMosaic.Init

noncomputable section

namespace Cert.Proof

open Idealize.ShloMosaic Idealize.ShloMosaic.TcCoe Idealize.SL.Sem Idealize.ShloMosaic.StableHlo

/-- After the reference's three stretches the six argument buffers hold what they held at launch. -/
theorem ref_kept (W : Valuation Cert.ReferenceIdeal.τ Cert.ReferenceIdeal.sig (Elt Ideal)) :
    after Cert.ReferenceIdeal.Hand.opsDense (after Cert.ReferenceIdeal.Hand.opsSum (after Cert.ReferenceIdeal.Hand.opsPart W)) (Cert.ReferenceIdeal.main_arg0 : DevRef Cert.ReferenceIdeal.τ Cert.ReferenceIdeal.sig) = W (Cert.ReferenceIdeal.main_arg0 : DevRef Cert.ReferenceIdeal.τ Cert.ReferenceIdeal.sig)
    ∧ after Cert.ReferenceIdeal.Hand.opsDense (after Cert.ReferenceIdeal.Hand.opsSum (after Cert.ReferenceIdeal.Hand.opsPart W)) (Cert.ReferenceIdeal.main_arg1 : DevRef Cert.ReferenceIdeal.τ Cert.ReferenceIdeal.sig) = W (Cert.ReferenceIdeal.main_arg1 : DevRef Cert.ReferenceIdeal.τ Cert.ReferenceIdeal.sig)
    ∧ after Cert.ReferenceIdeal.Hand.opsDense (after Cert.ReferenceIdeal.Hand.opsSum (after Cert.ReferenceIdeal.Hand.opsPart W)) (Cert.ReferenceIdeal.main_arg2 : DevRef Cert.ReferenceIdeal.τ Cert.ReferenceIdeal.sig) = W (Cert.ReferenceIdeal.main_arg2 : DevRef Cert.ReferenceIdeal.τ Cert.ReferenceIdeal.sig)
    ∧ after Cert.ReferenceIdeal.Hand.opsDense (after Cert.ReferenceIdeal.Hand.opsSum (after Cert.ReferenceIdeal.Hand.opsPart W)) (Cert.ReferenceIdeal.main_arg3 : DevRef Cert.ReferenceIdeal.τ Cert.ReferenceIdeal.sig) = W (Cert.ReferenceIdeal.main_arg3 : DevRef Cert.ReferenceIdeal.τ Cert.ReferenceIdeal.sig)
    ∧ after Cert.ReferenceIdeal.Hand.opsDense (after Cert.ReferenceIdeal.Hand.opsSum (after Cert.ReferenceIdeal.Hand.opsPart W)) (Cert.ReferenceIdeal.main_arg4 : DevRef Cert.ReferenceIdeal.τ Cert.ReferenceIdeal.sig) = W (Cert.ReferenceIdeal.main_arg4 : DevRef Cert.ReferenceIdeal.τ Cert.ReferenceIdeal.sig)
    ∧ after Cert.ReferenceIdeal.Hand.opsDense (after Cert.ReferenceIdeal.Hand.opsSum (after Cert.ReferenceIdeal.Hand.opsPart W)) (Cert.ReferenceIdeal.main_arg5 : DevRef Cert.ReferenceIdeal.τ Cert.ReferenceIdeal.sig) = W (Cert.ReferenceIdeal.main_arg5 : DevRef Cert.ReferenceIdeal.τ Cert.ReferenceIdeal.sig) := by
  obtain ⟨d0, d1, d2, d3, d4, d5⟩ := Cert.ReferenceIdeal.Hand.dense_args (after Cert.ReferenceIdeal.Hand.opsSum (after Cert.ReferenceIdeal.Hand.opsPart W))
  obtain ⟨s0, s1, s2, s3, s4, s5⟩ := Cert.ReferenceIdeal.Hand.sum_args (after Cert.ReferenceIdeal.Hand.opsPart W)
  obtain ⟨p0, p1, p2, p3, p4, p5⟩ := Cert.ReferenceIdeal.Hand.part_args W
  exact ⟨d0.trans (s0.trans p0), d1.trans (s1.trans p1), d2.trans (s2.trans p2), d3.trans (s3.trans p3),
    d4.trans (s4.trans p4), d5.trans (s5.trans p5)⟩

/-- From launch memories that agree on the features and the two index arrays, the neighbour sums the reference
    divides by the fanout are the neighbour sums the kernel's region finds. -/
theorem sums_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after Cert.ReferenceIdeal.Hand.opsSum (after Cert.ReferenceIdeal.Hand.opsPart (launchContents m' c)) (Cert.ReferenceIdeal.main_v17 : DevRef Cert.ReferenceIdeal.τ Cert.ReferenceIdeal.sig)
      = Cert.KernelIdeal.Gen.V m c Cert.KernelIdeal.main_v19 := by
  rw [Cert.KernelIdeal.Hand.V_split]
  symm
  apply Cert.Shared.sum_eq
  · exact Cert.Shared.part_eq _ _
  · rw [(Cert.KernelIdeal.Hand.head_arg _).1, (Cert.ReferenceIdeal.Hand.part_args _).1]; exact h0.symm
  · rw [(Cert.KernelIdeal.Hand.head_arg _).2.1, (Cert.ReferenceIdeal.Hand.part_args _).2.1]; exact h1.symm
  · rw [(Cert.KernelIdeal.Hand.head_arg _).2.2.1, (Cert.ReferenceIdeal.Hand.part_args _).2.2.1]; exact h2.symm

/-- The kernel as printed runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, with the argument buffers read after the three stretches. -/
theorem frame_referenceIdeal : Cert.frame_ReferenceIdeal := fun m ρ _ =>
  (θ_run Cert.ReferenceIdeal.defs _ _).mono (fun _ h c => by
    obtain ⟨k0, k1, k2, k3, k4, k5⟩ := ref_kept (launchContents m c)
    exact ⟨(h c _).trans k0, (h c _).trans k1, (h c _).trans k2, (h c _).trans k3, (h c _).trans k4, (h c _).trans k5⟩)
    (Cert.ReferenceIdeal.Hand.run (F := Ideal) m ρ)

/-- Both idealized programs end with the specification's array of the arguments and the shared neighbour sums. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (Cert.KernelIdeal.Gen.V m c Cert.KernelIdeal.main_v19) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Hand.run m ρ, ?_⟩
  refine (θ_run Cert.ReferenceIdeal.defs _ _).mono (fun r h c => ?_) (Cert.ReferenceIdeal.Hand.run (F := Ideal) m' ρ')
  obtain ⟨a0, a1, a2, a3, a4, a5⟩ := hagree c
  obtain ⟨k0, k1, k2, k3, k4, k5⟩ := ref_kept (launchContents m' c)
  obtain ⟨s0, s1, s2, s3, s4, s5⟩ := Cert.ReferenceIdeal.Hand.sum_args (after Cert.ReferenceIdeal.Hand.opsPart (launchContents m' c))
  obtain ⟨p0, p1, p2, p3, p4, p5⟩ := Cert.ReferenceIdeal.Hand.part_args (launchContents m' c)
  refine ⟨(h c _).trans ?_, (h c _).trans k0, (h c _).trans k1, (h c _).trans k2, (h c _).trans k3, (h c _).trans k4,
    (h c _).trans k5⟩
  rw [Cert.ReferenceIdeal.Hand.dense_eq, s0.trans p0, s3.trans p3, s4.trans p4, s5.trans p5, sums_agree m m' c a0 a1 a2]
  show Cert.Spec.G (m' ((c.tc : Thread Cert.ReferenceIdeal.nD Cert.ReferenceIdeal.τ).loc Cert.ReferenceIdeal.main_arg0)) _ (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [a0, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
